-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S1024x128 : Shape := ⟨2, ![1024, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S131072x128 .f32) (main_arg1 : FVec F S1024x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S131072x128 : Shape := ⟨2, ![131072, 128]⟩
abbrev S1024x128 : Shape := ⟨2, ![1024, 128]⟩
abbrev S_ : Shape := ⟨0, ![]⟩
abbrev S1024 : Shape := ⟨1, ![1024]⟩
abbrev S1x1024 : Shape := ⟨2, ![1, 1024]⟩
abbrev S131072x1024 : Shape := ⟨2, ![131072, 1024]⟩
abbrev S2048x128 : Shape := ⟨2, ![2048, 128]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 11
  | .vmem => 6
  | .smem => 0
  | _ => 0

abbrev bufTy : (tb : Table) → Fin (tcTables nBuf tb) → BufTy
  | .hbm, ⟨0, _⟩ => ⟨S131072x128, .f32⟩
  | .hbm, ⟨1, _⟩ => ⟨S1024x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S_, .f32⟩
  | .hbm, ⟨7, _⟩ => ⟨S1024x128, .f32⟩
  | .hbm, ⟨8, _⟩ => ⟨S1024x128, .f32⟩
  | .hbm, ⟨9, _⟩ => ⟨S1024x128, .bf16⟩
  | .hbm, ⟨10, _⟩ => ⟨S131072x1024, .f32⟩
  | .local _ .vmem, ⟨0, _⟩ => ⟨S2048x128, .f32⟩
  | .local _ .vmem, ⟨1, _⟩ => ⟨S2048x128, .f32⟩
  | .local _ .vmem, ⟨2, _⟩ => ⟨S1024x128, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x128_S1024_d1 : S1024x128.ReducesTo [1] S1024
  h_S_ : 0 < S_.numel
  bcast_S1024_S1x1024_1 : S1024.BroadcastsInDim S1x1024 (![1] : Fin 1 → Fin S1x1024.rank)
  bcast_S_S1024x128 : S_.BroadcastsInDim S1024x128 (![] : Fin 0 → Fin S1024x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S2048x128_S2048 : S2048x128.Reduces [1] S2048
  shapeCasts_S2048_S2048x1 : S2048.ShapeCasts S2048x1
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S131072x1024.size a
  hwx0_3 : ∀ i : grid0.Coords, EltTy.bits .f32 = 32 ∨ (Rect.block (s := S131072x1024) S2048x1024.size (cc0_transform_3 i) (hinb0_3 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x128 : Shape := ⟨2, ![131072, 128]⟩
abbrev S1024x128 : Shape := ⟨2, ![1024, 128]⟩
abbrev S_ : Shape := ⟨0, ![]⟩
abbrev S131072 : Shape := ⟨1, ![131072]⟩
abbrev S131072x1 : Shape := ⟨2, ![131072, 1]⟩
abbrev S1024 : Shape := ⟨1, ![1024]⟩
abbrev S131072x1024 : Shape := ⟨2, ![131072, 1024]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S1024x128, .f32⟩
  | .hbm, ⟨2, _⟩ => ⟨S131072x128, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S1024x128, .f32⟩
  | .hbm, ⟨7, _⟩ => ⟨S_, .f32⟩
  | .hbm, ⟨8, _⟩ => ⟨S1024, .f32⟩
  | .hbm, ⟨9, _⟩ => ⟨S131072x1024, .f32⟩
  | .hbm, ⟨10, _⟩ => ⟨S1x1024, .f32⟩
  | .hbm, ⟨11, _⟩ => ⟨S131072x1024, .f32⟩
  | .hbm, ⟨12, _⟩ => ⟨S131072x1024, .f32⟩
  | .hbm, ⟨13, _⟩ => ⟨S131072x1024, .f32⟩
  | .hbm, ⟨14, _⟩ => ⟨S_, .f32⟩
  | .hbm, ⟨15, _⟩ => ⟨S131072x1024, .f32⟩
  | .hbm, ⟨16, _⟩ => ⟨S131072x1024, .f32⟩
  | .hbm, ⟨17, _⟩ => ⟨S131072x1024, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S1024x128_S1024_d1 : S1024x128.ReducesTo [1] S1024
  bcast_S1024_S1x1024_1 : S1024.BroadcastsInDim S1x1024 (![1] : Fin 1 → Fin S1x1024.rank)
  bcast_S131072x1_S131072x1024_0_1 : S131072x1.BroadcastsInDim S131072x1024 (![0, 1] : Fin 2 → Fin S131072x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  dot_S131072x128_S1024x128_S131072x1024_1_1_0_0_n_n_wf : DotDims.WF S131072x128 S1024x128 S131072x1024 [1] [1] [0] [0] [] []

variable [Facts₀]

def dot_S131072x128_S1024x128_S131072x1024_1_1_0_0_n_n : DotDims S131072x128 S1024x128 S131072x1024 where
  lhsContracting := [1]
  rhsContracting := [1]
  lhsNonContracting := [0]
  rhsNonContracting := [0]
  lhsBatch := []
  rhsBatch := []
  wf := dot_S131072x128_S1024x128_S131072x1024_1_1_0_0_n_n_wf

class Facts : Prop extends Facts₀ where

variable [Facts]
-- ==== Proof.LibColRow.lean ====
/-
  A vector laid along a column or a row of a matrix, read at an index: the row-major recast [a] → [a, 1] at (i, u) is
  the vector's entry i; a vector broadcast down a column [n] → [n, 1] and then across the lanes [n, 1] → [n, k] reads
  its entry r at (r, q); a vector broadcast along a row [k] → [1, k] and then down the rows [1, k] → [n, k] reads its
  entry q at (r, q). General in the extents and in the element type.
-/
import Idealize.ShloMosaic.Lib.ValueIdx
import Idealize.ShloMosaic.Lib.Pipeline.Value

namespace Cert.LibColRow

open Idealize.ShloMosaic Idealize.ShloMosaic.ValueIdx

variable {α : Type}

/-- A vector recast as a column reads, at (i, u), its entry i, whatever the unit coordinate u. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector laid down a column and then across the lanes reads, at (r, q), its entry r. -/
theorem bcast_col_apply {n k : Nat} (hn : n ≠ 1)
    (h1 : (⟨1, ![n]⟩ : Shape).BroadcastsInDim ⟨2, ![n, 1]⟩ (![0] : Fin 1 → Fin 2))
    (h2 : (⟨2, ![n, 1]⟩ : Shape).BroadcastsInDim ⟨2, ![n, k]⟩ (![0, 1] : Fin 2 → Fin 2))
    (v : (⟨1, ![n]⟩ : Shape).Idx → α) (r : Fin n) (q : Fin k) :
    broadcastInDim ⟨2, ![n, k]⟩ ![0, 1] h2 (broadcastInDim ⟨2, ![n, 1]⟩ ![0] h1 v) (ix2 r q) = v (ix1 r) := by
  rw [broadcastInDim_apply ![0, 1] h2 _ (ix2 r q) (ix2 r 0) (fun a => by
    match a with
    | ⟨0, _⟩ => exact (if_neg hn).symm
    | ⟨1, _⟩ => exact (if_pos rfl).symm)]
  exact broadcastInDim_apply ![0] h1 v (ix2 r 0) (ix1 r) (fun a => by
    match a with
    | ⟨0, _⟩ => exact (if_neg hn).symm)

/-- A vector laid along a row and then down the rows reads, at (r, q), its entry q. -/
theorem bcast_row_apply {n k : Nat} (hk : k ≠ 1)
    (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (v : (⟨1, ![k]⟩ : Shape).Idx → α) (r : Fin n) (q : Fin k) :
    broadcastInDim ⟨2, ![n, k]⟩ ![0, 1] h2 (broadcastInDim ⟨2, ![1, k]⟩ ![1] h1 v) (ix2 r q) = v (ix1 q) := by
  rw [broadcastInDim_apply ![0, 1] h2 _ (ix2 r q) (ix2 0 q) (fun a => by
    match a with
    | ⟨0, _⟩ => exact (if_pos rfl).symm
    | ⟨1, _⟩ => exact (if_neg hk).symm)]
  exact broadcastInDim_apply ![1] h1 v (ix2 0 q) (ix1 q) (fun a => by
    match a with
    | ⟨0, _⟩ => exact (if_neg hk).symm)

end Cert.LibColRow
-- ==== Proof.LibColBroadcast.lean ====
/-
  A column laid across the lanes of a matrix, read at an index: an [a, 1] array broadcast to [a, b] reads, at (p, c),
  the column's entry at row p, whatever the lane c. (The companion of the library's row form [1, b] → [a, b].)
  General in the extents and in the element type.
-/
import Idealize.ShloMosaic.Lib.ValueIdx
import Idealize.ShloMosaic.Lib.Pipeline.Value

namespace Cert.LibColBroadcast

open Idealize.ShloMosaic Idealize.ShloMosaic.ValueIdx

variable {α : Type}

/-- An [a, 1] array broadcast to [a, b] reads, at (p, c), the operand's one column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.BlockValue.lean ====
/-
  What the kernel body stores for one block, entry by entry. From a block X of 2048 rows of x, the whole doubled
  prototype matrix W' and the row vector s of the prototypes' squared norms, the body stores at (p, q)

      (Σ_k X(p,k)² + s(q)) − Σ_k X(p,k) · W'(q,k):

  the row's sum of squares laid across the lanes, the norms laid down the rows, and the product X · W'ᵀ accumulated
  from zero. The changes of float format on the way into the product are the identity on the extended reals.
-/
import proofs.«109656_j14139032339041_2_alg».proof.Proof.Gen.KernelIdeal.Skeleton
import proofs.«109656_j14139032339041_2_alg».proof.Proof.LibColRow
import proofs.«109656_j14139032339041_2_alg».proof.Proof.LibColBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.BlockValue

open Cert.KernelIdeal Cert.KernelIdeal.Gen Idealize.ShloMosaic Idealize.ShloMosaic.ValueIdx

/-- The dimension numbers of the body's product: both operands contracted on their second axis. -/
abbrev D := dot_S2048x128_S1024x128_S2048x1024_1_1_0_0_n_n

/-- The sum along a row of a 2048 × 128 block, at row p. -/
theorem rowSum_apply (v : FVec Ideal S2048x128 .f32) (p : Fin 2048) :
    multiReduction (F := Ideal) .add [1] S2048 v 0x00000000#32 reduces_S2048x128_S2048 (.inl rfl) rfl (ix1 p)
      = ∑ k : Fin 128, v (ix2 p k) := by
  refine (Ideal.multiReduction_add_single v 0x00000000#32 reduces_S2048x128_S2048 (.inl rfl) rfl (ix1 p)).trans ?_
  refine Finset.sum_congr rfl fun k _ => congrArg v ?_
  funext a
  apply Fin.ext
  match a with
  | ⟨0, _⟩ => rfl
  | ⟨1, _⟩ => rfl

/-- The left operand of the product's k-th term at output entry j: row (j 0), column k. -/
theorem lhs_row (j : S2048x1024.Idx) (u : D.contr.Idx) : (D.lhsIdx j u 0).val = (j 0).val := by
  unfold DotDims.lhsIdx
  rw [dif_neg (show ¬(0 : Fin S2048x128.rank) ∈ D.lhsBatch by decide), dif_pos (show (0 : Fin S2048x128.rank) ∈ D.lhsNonContracting by decide)]
  rfl
theorem lhs_col (j : S2048x1024.Idx) (u : D.contr.Idx) : (D.lhsIdx j u 1).val = (u ⟨0, by decide⟩).val :=
  D.lhsIdx_val_of_single rfl j u
/-- The right operand of the product's k-th term at output entry j: row (j 1), column k. -/
theorem rhs_row (j : S2048x1024.Idx) (u : D.contr.Idx) : (D.rhsIdx j u 0).val = (j 1).val := by
  unfold DotDims.rhsIdx
  rw [dif_neg (show ¬(0 : Fin S1024x128.rank) ∈ D.rhsBatch by decide), dif_pos (show (0 : Fin S1024x128.rank) ∈ D.rhsNonContracting by decide)]
  rfl
theorem rhs_col (j : S2048x1024.Idx) (u : D.contr.Idx) : (D.rhsIdx j u 1).val = (u ⟨0, by decide⟩).val :=
  D.rhsIdx_val_of_single rfl j u

/-- The product of a 2048 × 128 block with the transpose of a 1024 × 128 matrix, accumulated from zero, at (p, q). -/
theorem product_apply (l : FVec Ideal S2048x128 .bf16) (r : FVec Ideal S1024x128 .bf16) (p : Fin 2048) (q : Fin 1024) :
    matmul (F := Ideal) D none l r (constant S2048x1024 .f32 0x00000000#32) (ix2 p q)
      = ∑ k : Fin 128, l (ix2 p k) * r (ix2 q k) := by
  refine (Ideal.matmul_constant_zero_apply D none l r (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 q k := funext fun a => Fin.ext (by
    match a with
    | ⟨0, _⟩ => exact rhs_row _ _
    | ⟨1, _⟩ => exact (rhs_col _ _).trans hk)
  rw [el, er]

/-- The body's stored value at entry (p, q) of the block. -/
theorem stored_apply (x0 : FVec Ideal S2048x128 .f32) (x1 : FVec Ideal S1024x128 .bf16) (x2 : FVec Ideal S1x1024 .f32)
    (p : Fin 2048) (q : Fin 1024) :
    k0_pay1 (F := Ideal) x0 x1 x2 (ix2 p q)
      = ((∑ k : Fin 128, x0 (ix2 p k) * x0 (ix2 p k)) + x2 (ix2 (0 : Fin 1) q)) - ∑ k : Fin 128, x0 (ix2 p k) * x1 (ix2 q k) := by
  unfold k0_pay1
  dsimp only
  rw [subf_apply, addf_apply, Cert.LibColBroadcast.broadcastTo_a1_ab_apply, Cert.LibColRow.shapeCast_col_apply, rowSum_apply,
    broadcastTo_1b_ab_apply, shapeCast_self, product_apply]
  simp only [mulf_apply, truncf_apply, shapeCast_self]

end Cert.BlockValue

end
-- ==== Proof.LibERealScale.lean ====
/-
  A finite nonnegative factor moves across a finite sum of extended reals.

  The extended reals are not a semiring: x * (a + b) = x * a + x * b can fail when a and b are infinities of opposite
  signs. It does hold whenever x is nonnegative and finite, for ALL a and b; so such an x distributes over any finite
  sum, and scaling the left factor of every product in a contraction by x scales the whole contraction by x. This is
  what lets a kernel fold a positive dyadic scale (1/8, 1/16, ...) into one operand of a matrix product while its
  reference scales the product, with no finiteness assumption on the data.
-/
import Idealize.ShloMosaic.PureOps.Ideal

namespace Cert.LibERealScale

/-- The product with a finite nonnegative constant distributes over any finite sum of extended reals. -/
theorem mul_sum_of_nonneg {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- Scaling the left factor of every product by a finite nonnegative constant scales the contraction by it. -/
theorem sum_scaled_mul {ι : Type*} (s : Finset ι) (a b : ι → EReal) {c : EReal} (h0 : 0 ≤ c) (ht : c ≠ ⊤) :
    ∑ i ∈ s, (a i * c) * b i = (∑ i ∈ s, a i * b i) * c := by
  rw [mul_comm _ c, mul_sum_of_nonneg s _ h0 ht]
  exact Finset.sum_congr rfl fun i _ => by rw [mul_comm (a i) c, mul_assoc]

end Cert.LibERealScale
-- ==== Proof.SqDist.lean ====
/-
  The squared Euclidean distance between every row of x (131072 rows of 128 entries) and every prototype row of w
  (1024 rows of 128 entries), in its expanded form, on the extended reals:

      D(r, q) = (Σ_k x(r,k)² + Σ_k w(q,k)²) − 2 · Σ_k x(r,k) · w(q,k).

  One program scales the prototypes by 2 before the products are summed, the other scales the sum of products by 2.
  The two agree on ALL extended reals: multiplication of extended reals is commutative and associative, and a finite
  nonnegative factor (here 2) distributes over a finite sum whatever the summands are, infinities of both signs
  included. No finiteness of the data is used.
-/
import Idealize.ShloMosaic.PureOps.Ideal
import Idealize.ShloMosaic.Lib.ValueIdx
import proofs.«109656_j14139032339041_2_alg».proof.Proof.LibERealScale

noncomputable section

namespace Cert.SqDist

open Idealize.ShloMosaic Idealize.ShloMosaic.ValueIdx

/-- The data matrix, the prototype matrix and the distance matrix. -/
abbrev SX : Shape := ⟨2, ![131072, 128]⟩
abbrev SW : Shape := ⟨2, ![1024, 128]⟩
abbrev SD : Shape := ⟨2, ![131072, 1024]⟩

/-- The float word of 2.0, read as an extended real. -/
abbrev two : EReal := Ideal.ofBits .f32 0x40000000#32

/-- That word denotes the real number 2. -/
theorem two_eq : two = ((2 : ℝ) : EReal) := by
  simp [two, Ideal.ofBits, Ideal.ieee, -EReal.coe_mul]; norm_num

theorem two_nonneg : 0 ≤ two := by
  rw [two_eq]; exact EReal.coe_nonneg.mpr (by norm_num)

theorem two_ne_top : two ≠ ⊤ := by
  rw [two_eq]; exact EReal.coe_ne_top _

/-- The squared norm of row r of x. -/
def normSqX (x : SX.Idx → EReal) (r : Fin 131072) : EReal := ∑ k : Fin 128, x (ix2 r k) * x (ix2 r k)

/-- The squared norm of prototype q. -/
def normSqW (w : SW.Idx → EReal) (q : Fin 1024) : EReal := ∑ k : Fin 128, w (ix2 q k) * w (ix2 q k)

/-- The inner product of row r of x with prototype q. -/
def inner (x : SX.Idx → EReal) (w : SW.Idx → EReal) (r : Fin 131072) (q : Fin 1024) : EReal :=
  ∑ k : Fin 128, x (ix2 r k) * w (ix2 q k)

/-- The expanded squared distance, entry by entry. -/
def dist (x : SX.Idx → EReal) (w : SW.Idx → EReal) : SD.Idx → EReal := fun i =>
  (normSqX x (i 0) + normSqW w (i 1)) - two * inner x w (i 0) (i 1)

/-- Summing the products of a row with a prototype whose every entry was doubled doubles the inner product. -/
theorem inner_doubled (x : SX.Idx → EReal) (w : SW.Idx → EReal) (r : Fin 131072) (q : Fin 1024) :
    ∑ k : Fin 128, x (ix2 r k) * (two * w (ix2 q k)) = two * inner x w r q := by
  unfold inner
  rw [Cert.LibERealScale.mul_sum_of_nonneg _ _ two_nonneg two_ne_top]
  exact Finset.sum_congr rfl fun k _ => mul_left_comm _ _ _

end Cert.SqDist

end
-- ==== Proof.HostPrefix.lean ====
/-
  What the kernel's program computes on the host before the launch, as functions of the prototype matrix w: the
  doubled prototypes W'(q,k) = 2 · w(q,k) (then recast to a narrower float format, the identity on the extended
  reals), and the row vector of squared norms s(0,q) = 0 + Σ_k w(q,k)².
-/
import proofs.«109656_j14139032339041_2_alg».proof.Proof.Gen.KernelIdeal
import proofs.«109656_j14139032339041_2_alg».proof.Proof.SqDist
import Idealize.ShloMosaic.Lib.ValueIdx
import Idealize.ShloMosaic.Lib.Pipeline.Value
import Idealize.ShloMosaic.PureOps.Ideal.Laws

noncomputable section

namespace Cert.HostPrefix

open Cert.KernelIdeal Cert.KernelIdeal.Facts₀ Idealize.ShloMosaic Idealize.ShloMosaic.ValueIdx Cert.SqDist

/-- The prototypes, every entry doubled. -/
def doubled (w : FVec Ideal S1024x128 .f32) : FVec Ideal S1024x128 .bf16 :=
  truncf .bf16 (mulf (broadcastInDim S1024x128 ![] bcast_S_S1024x128 (constant (F := Ideal) S_ .f32 0x40000000#32)) w) bitsLt_bf16_f32

/-- The prototypes' squared norms, as one row. -/
def normRow (w : FVec Ideal S1024x128 .f32) : FVec Ideal S1x1024 .f32 :=
  broadcastInDim S1x1024 ![1] bcast_S1024_S1x1024_1
    (Host.reduceAdd (F := Ideal) (mulf w w) (constant (F := Ideal) S_ .f32 0x00000000#32) reducesTo_S1024x128_S1024_d1 h_S_)

theorem doubled_apply (w : FVec Ideal S1024x128 .f32) (q : Fin 1024) (k : Fin 128) :
    doubled w (ix2 q k) = two * w (ix2 q k) := by
  unfold doubled
  rw [truncf_apply, mulf_apply, broadcastInDim_apply ![] bcast_S_S1024x128 _ (ix2 q k) ix0 (fun a => a.elim0), constant_apply]

theorem normRow_apply (w : FVec Ideal S1024x128 .f32) (q : Fin 1024) :
    normRow w (ix2 (0 : Fin 1) q) = normSqW w q := by
  unfold normRow
  rw [broadcastInDim_apply ![1] bcast_S1024_S1x1024_1 _ (ix2 (0 : Fin 1) q) (ix1 q) (fun a => by
    match a with
    | ⟨0, _⟩ => show q.val = if (1024 : Nat) = 1 then 0 else q.val; rw [if_neg (by decide)])]
  simp only [Host.reduceAdd, Ideal.hostReduceAdd_def]
  rw [Ideal.hostReduceAdd_single reducesTo_S1024x128_S1024_d1 (by decide)]
  show Ideal.ofBits .f32 0x00000000#32 + _ = _
  rw [Ideal.ofBits_zero_f32, zero_add]
  unfold normSqW
  refine Finset.sum_congr rfl fun k _ => ?_
  have e : (by decide : S1024x128.Reduces [1] S1024).lift (ix1 q) k = ix2 q k :=
    funext fun a => Fin.ext (by match a with | ⟨0, _⟩ => rfl | ⟨1, _⟩ => rfl)
  rw [mulf_apply, e]
  rfl

end Cert.HostPrefix

end
-- ==== Proof.ArrayValue.lean ====
/-
  The kernel's result array after its run is the expanded squared distance of the two argument arrays.

  The grid has 64 points. Point t reads rows 2048·t … 2048·t + 2047 of x, the whole doubled prototype matrix and the
  whole row of squared norms (both written by the host before the launch), and writes rows 2048·t … 2048·t + 2047 of
  the result. At entry (p, q) of that block the body stored (Σ_k X(p,k)² + s(q)) − Σ_k X(p,k) · 2·w(q,k), which is
  the distance at (2048·t + p, q): doubling every prototype entry doubles the inner product. The 64 blocks tile the
  131072 rows, so the array ends holding the distance everywhere.
-/
import proofs.«109656_j14139032339041_2_alg».proof.Proof.Gen.KernelIdeal.Value
import proofs.«109656_j14139032339041_2_alg».proof.Proof.BlockValue
import proofs.«109656_j14139032339041_2_alg».proof.Proof.HostPrefix
import proofs.«109656_j14139032339041_2_alg».proof.Proof.SqDist
import Idealize.ShloMosaic.Lib.StableHlo.Run
import Idealize.ShloMosaic.Lib.Pipeline.Value

noncomputable section

namespace Cert.ArrayValue

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.SqDist
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- One entry of a stored block, when the block of x is rows of x, the second operand is the doubled prototypes and
    the third the prototypes' squared norms: it is the distance at the entry's place (row i 0, prototype i 1) in the array. -/
theorem block_entry (x : SX.Idx → EReal) (w : SW.Idx → EReal)
    (X : FVec Ideal S2048x128 .f32) (W' : FVec Ideal S1024x128 .bf16) (s : FVec Ideal S1x1024 .f32)
    (hW : ∀ (q : Fin 1024) (k : Fin 128), W' (ix2 q k) = two * w (ix2 q k))
    (hs : ∀ q : Fin 1024, s (ix2 (0 : Fin 1) q) = normSqW w q)
    (j : S2048x1024.Idx) (i : SD.Idx) (hi : (i 1).val = (j 1).val)
    (hX : ∀ k : Fin 128, X (ix2 (j 0) k) = x (ix2 (i 0) k)) :
    k0_pay1 (F := Ideal) X W' s j = dist x w i := by
  obtain ⟨p, q, rfl⟩ : ∃ (p : Fin 2048) (q : Fin 1024), j = ix2 p q := ⟨j 0, j 1, eq_ix2 j⟩
  obtain ⟨r, q', rfl⟩ : ∃ (r : Fin 131072) (q' : Fin 1024), i = ix2 r q' := ⟨i 0, i 1, eq_ix2 i⟩
  obtain rfl : q' = q := Fin.ext hi
  have hX' : ∀ k : Fin 128, X (ix2 p k) = x (ix2 r k) := hX
  rw [Cert.BlockValue.stored_apply]
  simp only [hX', hW, hs]
  rw [inner_doubled]
  rfl

/-- The doubled prototypes are what the region finds in its second operand's array. -/
theorem V_doubled (c : Dev nD) :
    (V m c main_v5 : S1024x128.Idx → EReal) = Cert.HostPrefix.doubled (m ((c : Thread nD τ).loc main_arg1)) := by
  dsimp only [V, hostOps0]
  after_results
  rfl

/-- The row of squared norms is what the region finds in its third operand's array. -/
theorem V_normRow (c : Dev nD) :
    (V m c main_v2 : S1x1024.Idx → EReal) = Cert.HostPrefix.normRow (m ((c : Thread nD τ).loc main_arg1)) := by
  dsimp only [V, hostOps0]
  after_results
  rfl

/-- Where each window's block sits at point t: the data and the result move down one block of rows per point, the
    two host-written operands stay whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the distance matrix of the argument arrays. -/
theorem flushed_eq (c : Dev nD) (t : Fin cfg0.N) :
    (dats m 0 c).flushed 3 t = ((cfg0.win 3).blk t).view.read (Elt Ideal)
      (dist (m ((c : Thread nD τ).loc main_arg0)) (m ((c : Thread nD τ).loc main_arg1))) := by
  rw [flushed3]
  unfold out0_3
  rw [View.canon_unit_zero zeros]
  simp only [View.ld_unit_zero (S := S2048x128) zeros, View.ld_unit_zero (S := S1024x128) zeros, View.ld_unit_zero (S := S1x1024) zeros]
  obtain ⟨e00, e01, e10, e11, e20, e21, e30, e31⟩ := idx_facts t
  funext j
  show k0_pay1 (F := Ideal) (iblk m c 0 t) (iblk m c 1 t) (iblk m c 2 t) j = dist _ _ (((cfg0.win 3).blk t).view.emb j)
  refine block_entry _ _ (iblk m c 0 t) (iblk m c 1 t) (iblk m c 2 t) ?_ ?_ j _ ?_ ?_
  · -- the second operand's block is the whole array of doubled prototypes
    intro q k
    show V m c main_v5 (((cfg0.win 1).blk t).view.emb (ix2 q k)) = _
    have he : ((cfg0.win 1).blk t).view.emb (ix2 q k) = ix2 q k := by
      funext a; apply Fin.ext
      match a with
      | ⟨0, _⟩ => show win0_1.index t (0 : Fin 2) * 1024 + 1 * q.val = q.val; omega
      | ⟨1, _⟩ => show win0_1.index t (1 : Fin 2) * 128 + 1 * k.val = k.val; omega
    rw [he, V_doubled, Cert.HostPrefix.doubled_apply]
  · -- the third operand's block is the whole row of squared norms
    intro q
    show V m c main_v2 (((cfg0.win 2).blk t).view.emb (ix2 (0 : Fin 1) q)) = _
    have he : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 1024 + 1 * q.val = q.val; omega
    rw [he, V_normRow, Cert.HostPrefix.normRow_apply]
  · -- the entry's prototype is its lane
    show win0_3.index t (1 : Fin 2) * 1024 + 1 * (j 1).val = (j 1).val
    omega
  · -- the first operand's block is the same rows of x as the result block's
    intro k
    show V m c main_arg0 (((cfg0.win 0).blk t).view.emb (ix2 (j 0) k)) = _
    rw [V_main_arg0]
    refine congrArg _ ?_
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 128 + 1 * k.val = k.val; omega

/-- An index of the result array is in point t's block iff each coordinate is in the block's range on its axis. -/
theorem mem_blk (t : Fin cfg0.N) (i : S131072x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v6).slice (win0_3.rect t)).set ↔ _
  rw [View.set_slice_whole, Rect.mem_set_unit]
  exact Iff.rfl

/-- Every entry of the result array is in the block of the point that owns its row: point (row / 2048). -/
theorem cover (i : S131072x1024.Idx) :
    ∃ t : Fin cfg0.N, (cfg0.win 3).flush t = true ∧ i ∈ ((cfg0.win 3).blk t).view.set := by
  have hi0 : (i 0).val < 131072 := (i 0).isLt
  have hi1 : (i 1).val < 1024 := (i 1).isLt
  have hN : grid0.N = 64 := N_0
  obtain ⟨t, ht⟩ : ∃ t : Fin cfg0.N, t.val = (i 0).val / 2048 := ⟨⟨(i 0).val / 2048, by show _ < grid0.N; rw [hN]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 1024 ≤ (i 1).val ∧ (i 1).val < win0_3.index t (1 : Fin 2) * 1024 + 1024
    omega

/-- The result array after the run. -/
theorem final (c : Dev nD) : (dats m 0 c).arrAt 3 cfg0.N
    = dist (m ((c : Thread nD τ).loc main_arg0)) (m ((c : Thread nD τ).loc main_arg1)) :=
  (dats m 0 c).arrAt_eq_of_cover 3 _ (fun t _ => flushed_eq m c t) cover

/-- The kernel's run, read: the result array at the distance matrix of the arguments, the arguments unchanged. -/
theorem run : θ_run defs (onTc (τ := τ) (main (F := Ideal))) ⟨m, fun _ => 0, ρ⟩ fun r => ∀ c : Dev nD,
      r.2.mem ((c : Thread nD τ).loc main_v6) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.ArrayValue

end
-- ==== Proof.RefDist.lean ====
/-
  The reference program's result, entry by entry: it sums the squares along each row of x and of w (each sum started
  from the float zero), lays the first down the columns and the second along the rows of a 131072 × 1024 matrix, adds
  them, and subtracts twice the matrix product x · wᵀ. At entry (r, q) that is the expanded squared distance between
  row r of x and prototype q.
-/
import proofs.«109656_j14139032339041_2_alg».proof.Proof.Gen.ReferenceIdeal.Read
import proofs.«109656_j14139032339041_2_alg».proof.Proof.SqDist

noncomputable section

namespace Cert.RefDist

open Cert.ReferenceIdeal Cert.ReferenceIdeal.Read Idealize.ShloMosaic Idealize.ShloMosaic.ValueIdx Cert.SqDist

/-- The reference's last stage is the expanded squared distance of its two arguments. -/
theorem reference_eq (x0 : (⟨S131072x128, .f32⟩ : BufTy).Contents (Elt Ideal)) (x1 : (⟨S1024x128, .f32⟩ : BufTy).Contents (Elt Ideal)) :
    val_main_v12 (F := Ideal) x0 x1 = dist x0 x1 := by
  funext i
  -- the row of x that entry i reads, through the two broadcasts and the row sum
  have ex : ∀ k : Fin 128, idx_main_v1 (idx_main_v2 (idx_main_v7 i)) k = ix2 (i 0) k := fun k =>
    funext fun a => Fin.ext (by match a with | ⟨0, _⟩ => rfl | ⟨1, _⟩ => rfl)
  -- the prototype that entry i reads, likewise
  have ew : ∀ k : Fin 128, idx_main_v4 (idx_main_v6 (idx_main_v8 i)) k = ix2 (i 1) k := fun k =>
    funext fun a => Fin.ext (by match a with | ⟨0, _⟩ => rfl | ⟨1, _⟩ => rfl)
  -- the two factors of the matrix product's k-th term
  have el : ∀ k : Fin 128, lidx_main_v5 i k = ix2 (i 0) k := fun k =>
    funext fun a => Fin.ext (by match a with | ⟨0, _⟩ => rfl | ⟨1, _⟩ => rfl)
  have er : ∀ k : Fin 128, ridx_main_v5 i k = ix2 (i 1) k := fun k =>
    funext fun a => Fin.ext (by match a with | ⟨0, _⟩ => rfl | ⟨1, _⟩ => rfl)
  rw [val_main_v12_apply, val_main_v9_apply, val_main_v7_apply, val_main_v2_apply, val_main_v1_apply,
    val_main_v8_apply, val_main_v6_apply, val_main_v4_apply, val_main_v11_apply, val_main_v10_apply, val_main_v5_apply]
  simp only [val_main_v0_apply, val_main_v3_apply, val_main_cst_apply, val_main_cst_0_apply, val_main_cst_1_apply,
    ex, ew, el, er, Ideal.ofBits_def, Ideal.addf_def, Ideal.subf_def, Ideal.mulf_def, Ideal.ofBits_zero_f32, zero_add]
  rfl

end Cert.RefDist

end
-- ==== Proof.lean ====
/-
  The pairwise squared Euclidean distance between 131072 data rows and 1024 prototype rows of 128 entries, computed
  in its expanded form  D(r, q) = (Σ_k x(r,k)² + Σ_k w(q,k)²) − 2 · Σ_k x(r,k) · w(q,k).

  The reference computes exactly this, scaling the matrix product x · wᵀ by 2. The kernel's program doubles the
  prototypes on the host, sums their squares on the host, and in each of 64 grid points forms, for 2048 rows of x,
  the rows' sums of squares plus the prototypes' norms minus the product with the doubled prototypes. On the extended
  reals the two are the same function of (x, w): multiplication is commutative and associative, and the finite
  nonnegative factor 2 distributes over any finite sum, so Σ_k x(r,k) · (2 · w(q,k)) = 2 · Σ_k x(r,k) · w(q,k) with
  no assumption on the data. The precondition (finite inputs) is not used by the value argument.

  The three frame claims are the programs' generated runs; the idealization rewrote nothing, so its claim is trivial;
  the algebraic claim sets the kernel's run (result array = D of the arguments) beside the reference's run (its last
  stage = D of the arguments).
-/
import proofs.«109656_j14139032339041_2_alg».proof.Defs
import proofs.«109656_j14139032339041_2_alg».proof.Proof.Gen.Kernel
import proofs.«109656_j14139032339041_2_alg».proof.Proof.Gen.Kernel.Skeleton
import proofs.«109656_j14139032339041_2_alg».proof.Proof.Gen.Kernel.Launch
import proofs.«109656_j14139032339041_2_alg».proof.Proof.Gen.Kernel.Points
import proofs.«109656_j14139032339041_2_alg».proof.Proof.Gen.Kernel.Frame
import proofs.«109656_j14139032339041_2_alg».proof.Proof.Gen.KernelIdeal
import proofs.«109656_j14139032339041_2_alg».proof.Proof.Gen.KernelIdeal.Skeleton
import proofs.«109656_j14139032339041_2_alg».proof.Proof.Gen.KernelIdeal.Launch
import proofs.«109656_j14139032339041_2_alg».proof.Proof.Gen.KernelIdeal.Points
import proofs.«109656_j14139032339041_2_alg».proof.Proof.Gen.KernelIdeal.Frame
import proofs.«109656_j14139032339041_2_alg».proof.Proof.Gen.ReferenceIdeal
import proofs.«109656_j14139032339041_2_alg».proof.Proof.Gen.Pre_finite_inputs
import proofs.«109656_j14139032339041_2_alg».proof.Proof.Gen.KernelIdeal.Value
import proofs.«109656_j14139032339041_2_alg».proof.Proof.Gen.ReferenceIdeal.Run
import proofs.«109656_j14139032339041_2_alg».proof.Proof.Gen.ReferenceIdeal.Read
import proofs.«109656_j14139032339041_2_alg».proof.Proof.ArrayValue
import proofs.«109656_j14139032339041_2_alg».proof.Proof.RefDist
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the distance matrix of the shared arguments. -/
theorem algebraic : Cert.algebraic_KernelIdeal_ReferenceIdeal := by
  intro m ρ m' ρ' _ hagree
  refine ⟨_, Cert.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RefDist.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
